-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x7 .f32) (main_arg6 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S100000x16 : Shape := ⟨2, ![100000, 16]⟩
abbrev S5000x512 : Shape := ⟨2, ![5000, 512]⟩
abbrev S5000x16 : Shape := ⟨2, ![5000, 16]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x7 : Shape := ⟨2, ![100000, 7]⟩
abbrev S5000x7 : Shape := ⟨2, ![5000, 7]⟩
abbrev S3200000x7 : Shape := ⟨2, ![3200000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 48
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000x16, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x7, .f32⟩
  | .hbm, ⟨30, _⟩ => ⟨S3200000x1, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000x7, .f32⟩
  | .hbm, ⟨40, _⟩ => ⟨S3200000x7, .f32⟩
  | .hbm, ⟨41, _⟩ => ⟨S3200000x7, .f32⟩
  | .hbm, ⟨42, _⟩ => ⟨S_, .f32⟩
  | .hbm, ⟨43, _⟩ => ⟨S100000x7, .f32⟩
  | .hbm, ⟨44, _⟩ => ⟨S3200000x1, .i32⟩
  | .hbm, ⟨45, _⟩ => ⟨S100000x7, .f32⟩
  | .hbm, ⟨46, _⟩ => ⟨S1x7, .f32⟩
  | .hbm, ⟨47, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x7, .f32⟩
  | .local _ .vmem, ⟨9, _⟩ => ⟨S5000x7, .f32⟩
  | .local _ .vmem, ⟨10, _⟩ => ⟨S5000x7, .f32⟩
  | .local _ .vmem, ⟨11, _⟩ => ⟨S5000x7, .f32⟩
  | .local _ .vmem, ⟨12, _⟩ => ⟨S5000x7, .f32⟩
  | .local _ .vmem, ⟨13, _⟩ => ⟨S1x7, .f32⟩
  | .local _ .vmem, ⟨14, _⟩ => ⟨S5000x7, .f32⟩
  | .local _ .vmem, ⟨15, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  dot_S5000x512_S512x16_S5000x16_1_0_0_1_n_n_wf : DotDims.WF S5000x512 S512x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x7_S5000x7_1_0_0_1_n_n_wf : DotDims.WF S5000x16 S16x7 S5000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x7.size a ≤ S100000x7.size a
  hwx1_3 : ∀ i : grid1.Coords, EltTy.bits .f32 = 32 ∨ (Rect.block (s := S100000x7) S5000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x7.size a ≤ S100000x7.size a
  hwx2_0 : ∀ i : grid2.Coords, EltTy.bits .f32 = 32 ∨ (Rect.block (s := S100000x7) S5000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)

variable [Facts₀]

def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S5000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S5000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S1x3200000 : Shape := ⟨2, ![1, 3200000]⟩
abbrev S3200000x1 : Shape := ⟨2, ![3200000, 1]⟩
abbrev S_ : Shape := ⟨0, ![]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S3200000x16, .f32⟩
  | .hbm, ⟨23, _⟩ => ⟨S3200000x16, .f32⟩
  | .hbm, ⟨24, _⟩ => ⟨S_, .f32⟩
  | .hbm, ⟨25, _⟩ => ⟨S100000x16, .f32⟩
  | .hbm, ⟨26, _⟩ => ⟨S3200000x1, .i32⟩
  | .hbm, ⟨27, _⟩ => ⟨S100000x16, .f32⟩
  | .hbm, ⟨28, _⟩ => ⟨S1x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .f32⟩
  | .hbm, ⟨34, _⟩ => ⟨S100000x7, .f32⟩
  | .hbm, ⟨35, _⟩ => ⟨S1x3200000, .i32⟩
  | .hbm, ⟨36, _⟩ => ⟨S3200000, .i32⟩
  | .hbm, ⟨37, _⟩ => ⟨S1x3200000, .i32⟩
  | .hbm, ⟨38, _⟩ => ⟨S3200000, .i32⟩
  | .hbm, ⟨39, _⟩ => ⟨S3200000x1, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x7, .f32⟩
  | .hbm, ⟨49, _⟩ => ⟨S3200000x7, .f32⟩
  | .hbm, ⟨50, _⟩ => ⟨S3200000x7, .f32⟩
  | .hbm, ⟨51, _⟩ => ⟨S_, .f32⟩
  | .hbm, ⟨52, _⟩ => ⟨S100000x7, .f32⟩
  | .hbm, ⟨53, _⟩ => ⟨S3200000x1, .i32⟩
  | .hbm, ⟨54, _⟩ => ⟨S100000x7, .f32⟩
  | .hbm, ⟨55, _⟩ => ⟨S1x7, .f32⟩
  | .hbm, ⟨56, _⟩ => ⟨S100000x7, .f32⟩
  | .hbm, ⟨57, _⟩ => ⟨S100000x7, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x7, .f32⟩
  | .hbm, ⟨65, _⟩ => ⟨S100000x7, .f32⟩
  | .hbm, ⟨66, _⟩ => ⟨S100000x7, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x7, .f32⟩
  | .hbm, ⟨72, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x7_0_1 : S3200000x1.BroadcastsInDim S3200000x7 (![0, 1] : Fin 2 → Fin S3200000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KernelRun.lean ====
/-
  The idealized kernel's run with its RESULT read back. Every weakly fair execution of @main ends with the result
  buffer at what the last of the three kernel regions leaves in it: the contents at the last segment boundary, read
  at the result's reference. The argument arrays end as launched.

  The final thread state holds every unscoped buffer at the last boundary's contents, so the result is read from it
  exactly as each argument is; nothing about the values themselves is said here.
-/
import proofs.«174718_j90288802497036_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Result

end
-- ==== Proof.Stages.lean ====
/-
  The three dense stages of a two-layer graph convolution, each as ONE function of whole arrays over the extended
  reals, read index by index.

  * `feat`: the first linear map. Entry (r, c) of x·W is the sum over k of x(r, k) · W(k, c).
  * `hidden`: bias, rectifier and the second linear map. Entry (r, c) is the sum over k of
    max(a(r, k) + b(k), 0) · W(k, c), where a is the aggregated first layer.
  * `logSoftmax`: bias and a row-wise log-softmax. With z(r, c) = a(r, c) + b(c) and M(r) the maximum of row r of z,
    entry (r, c) is (z(r, c) − M(r)) − log (sum over k of exp (z(r, k) − M(r))).

  The row maximum is a fold of `max` from the word of −∞, and the rectifier's floor is the word of zero; neither word is
  ever evaluated, since both programs spell the same words. The one order fact the proof uses is that folding `max` from a
  value b never falls below b (`max_fold_self`): it removes a second, redundant maximum with b.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- The word of −∞, from which a row's maximum is folded. -/
abbrev negInf : EReal := Ideal.ofBits .f32 0xFF800000#32
/-- The word of zero: the rectifier's floor. -/
abbrev zeroW : EReal := Ideal.ofBits .f32 0x00000000#32

/-- Row r, column c of a matrix with n1 columns, from coordinates given as numbers below the extents. -/
abbrev at2 {n0 n1 : Nat} (r : Nat) (hr : r < n0) (c : Nat) (hc : c < n1) : (⟨2, ![n0, n1]⟩ : Shape).Idx :=
  ix2 (⟨r, hr⟩ : Fin n0) (⟨c, hc⟩ : Fin n1)

/-- The one row of a 1 × n matrix, as a vector of n entries. -/
def rowOf {n : Nat} (b : (⟨2, ![1, n]⟩ : Shape).Idx → EReal) : (⟨1, ![n]⟩ : Shape).Idx → EReal :=
  fun j => b (ix2 (0 : Fin 1) (⟨(j 0).val, (j 0).isLt⟩ : Fin n))

/-- x·W for x of 100000 rows by 512 and W of 512 by 16: entry (r, c) is the sum over k of x(r, k)·W(k, c). -/
def feat (x : (⟨2, ![100000, 512]⟩ : Shape).Idx → EReal) (w : (⟨2, ![512, 16]⟩ : Shape).Idx → EReal) :
    (⟨2, ![100000, 16]⟩ : Shape).Idx → EReal :=
  fun i => ∑ k : Fin 512, x (at2 (i 0).val (i 0).isLt k.val k.isLt) * w (at2 k.val k.isLt (i 1).val (i 1).isLt)

/-- max(a + b, 0)·W for a of 100000 rows by 16, a bias b of 16 entries laid along every row, and W of 16 by 7:
    entry (r, c) is the sum over k of max(a(r, k) + b(k), 0)·W(k, c). -/
def hidden (a : (⟨2, ![100000, 16]⟩ : Shape).Idx → EReal) (b : (⟨1, ![16]⟩ : Shape).Idx → EReal)
    (w : (⟨2, ![16, 7]⟩ : Shape).Idx → EReal) : (⟨2, ![100000, 7]⟩ : Shape).Idx → EReal :=
  fun i => ∑ k : Fin 16, max (a (at2 (i 0).val (i 0).isLt k.val k.isLt) + b (ix1 k)) zeroW * w (at2 k.val k.isLt (i 1).val (i 1).isLt)

/-- The biased scores: z(r, c) = a(r, c) + b(c). -/
def scores (a : (⟨2, ![100000, 7]⟩ : Shape).Idx → EReal) (b : (⟨1, ![7]⟩ : Shape).Idx → EReal) :
    (⟨2, ![100000, 7]⟩ : Shape).Idx → EReal :=
  fun i => a i + b (ix1 (⟨(i 1).val, (i 1).isLt⟩ : Fin 7))

/-- The maximum of row r of a matrix of 7 columns, folded from −∞. -/
def rowMax (z : (⟨2, ![100000, 7]⟩ : Shape).Idx → EReal) (r : Nat) (hr : r < 100000) : EReal :=
  (Finset.univ : Finset (Fin 7)).fold max negInf fun k => z (at2 r hr k.val k.isLt)

/-- The row-wise log-softmax of a matrix z of 7 columns: (z − M) − log (the row's sum of exp (z − M)), M the row's maximum. -/
def logSoftmax (z : (⟨2, ![100000, 7]⟩ : Shape).Idx → EReal) : (⟨2, ![100000, 7]⟩ : Shape).Idx → EReal :=
  fun i => (z i - rowMax z (i 0).val (i 0).isLt)
    - Ideal.log (∑ k : Fin 7, Ideal.exp (z (at2 (i 0).val (i 0).isLt k.val k.isLt) - rowMax z (i 0).val (i 0).isLt))

/-- Folding `max` from b over any finite family never falls below b, so a further maximum with b changes nothing. -/
theorem max_fold_self {ι : Type} (s : Finset ι) (b : EReal) (f : ι → EReal) :
    max b (s.fold max b f) = s.fold max b f :=
  max_eq_right ((Finset.le_fold_max b).mpr (Or.inl le_rfl))

end Cert.Gcn

end
-- ==== Proof.Aggregate.lean ====
/-
  The sparse aggregation between the dense stages, as ONE function of the edge list, the edge weights and a node-feature
  matrix h: the source and target node of every edge are rows 0 and 1 of the edge list; a negative source id is shifted
  up by the number of nodes; row e of the messages is the weight of edge e times row src(e) of h; and the messages are
  summed into the rows of a zero matrix by target node. Both programs spell these operations identically, so the
  definitions below are never opened: the two sides meet at them and only their node-feature arguments are compared.
-/
import proofs.«174718_j90288802497036_2_alg».proof.Proof.Gen.KernelIdeal

noncomputable section

namespace Cert.KernelIdeal.Aggregate

open Cert.KernelIdeal Cert.KernelIdeal.Facts₀ Idealize.ShloMosaic

variable {F : FTy → Type} [FloatOps F]

/-- The source node of every edge: row 0 of the edge list. -/
def srcIds (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000

/-- The target node of every edge: row 1 of the edge list. -/
def dstIds (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- The weighted sum over incoming edges of the source rows of a 100000 × 16 matrix. -/
def spread16 (src dst : (⟨S3200000, .i32⟩ : BufTy).Contents (Elt F)) (ew : (⟨S3200000, .f32⟩ : BufTy).Contents (Elt F))
    (h : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 dst)
    (mulf (broadcastInDim S3200000x16 ![0, 1] bcast_S3200000x1_S3200000x16_0_1 (broadcastInDim S3200000x1 ![0] bcast_S3200000_S3200000x1_0 ew))
      (Host.gather gather_S100000x16_S3200000x1_S3200000x16_1_0_n_n_0_1_116 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))

/-- The weighted sum over incoming edges of the source rows of a 100000 × 7 matrix. -/
def spread7 (src dst : (⟨S3200000, .i32⟩ : BufTy).Contents (Elt F)) (ew : (⟨S3200000, .f32⟩ : BufTy).Contents (Elt F))
    (h : (⟨S100000x7, .f32⟩ : BufTy).Contents (Elt F)) : (⟨S100000x7, .f32⟩ : BufTy).Contents (Elt F) :=
  Host.scatterAdd scatter_S100000x7_S3200000x1_S3200000x7_1_0_0_1
    (broadcastInDim S100000x7 ![] bcast_S_S100000x7 (constant S_ .f32 0x00000000#32))
    (broadcastInDim S3200000x1 ![0] bcast_S3200000_S3200000x1_0 dst)
    (mulf (broadcastInDim S3200000x7 ![0, 1] bcast_S3200000x1_S3200000x7_0_1 (broadcastInDim S3200000x1 ![0] bcast_S3200000_S3200000x1_0 ew))
      (Host.gather gather_S100000x7_S3200000x1_S3200000x7_1_0_n_n_0_1_17 h
        (broadcastInDim S3200000x1 ![0] bcast_S3200000_S3200000x1_0
          (select (cmpi .slt src (broadcastInDim S3200000 ![] bcast_S_S3200000 (constantI S_ 32 0#32)))
            (addi src (broadcastInDim S3200000 ![] bcast_S_S3200000 (constantI S_ 32 100000#32))) src))))

/-- A bias of 16 entries as the 1 × 16 row the second region is handed. -/
def asRow16 (b : (⟨S16, .f32⟩ : BufTy).Contents (Elt F)) : (⟨S1x16, .f32⟩ : BufTy).Contents (Elt F) :=
  shapeCast S1x16 b shapeCasts_S16_S1x16

/-- A bias of 7 entries as the 1 × 7 row the third region is handed. -/
def asRow7 (b : (⟨S7, .f32⟩ : BufTy).Contents (Elt F)) : (⟨S1x7, .f32⟩ : BufTy).Contents (Elt F) :=
  shapeCast S1x7 b shapeCasts_S7_S1x7

end Cert.KernelIdeal.Aggregate

end
-- ==== Proof.Stretches.lean ====
/-
  What the three stretches of host operations leave, read from ANY contents `Wv` of the buffers when the stretch starts.

  The first stretch slices the edge list into its source and target rows. The second and third are each one sparse
  aggregation (`Aggregate.spread16`, `Aggregate.spread7`) of the array the preceding kernel region wrote, followed by a bias
  reshaped to one row. A stretch leaves every buffer it does not write as it found it; those facts are stated for the
  buffers the later stages still read.
-/
import proofs.«174718_j90288802497036_2_alg».proof.Proof.Gen.KernelIdeal.Launch
import proofs.«174718_j90288802497036_2_alg».proof.Proof.Aggregate
import Idealize.ShloMosaic.Lib.StableHlo.Run

set_option maxRecDepth 16384

noncomputable section

namespace Cert.KernelIdeal.Stretches

open Cert.KernelIdeal Cert.KernelIdeal.Gen Cert.KernelIdeal.Aggregate
open Idealize.ShloMosaic Idealize.ShloMosaic.TcCoe Idealize.SL.Sem Idealize.ShloMosaic.StableHlo

variable {F : FTy → Type} [FloatOps F] (Wv : Valuation τ sig (Elt F))

/-! ## The first stretch: the edge list's two rows -/

/-- The source ids are row 0 of the edge list. -/
theorem first_src : StableHlo.after (hostOps0 (F := F)) Wv (Proc.devRef .tc main_v1) = srcIds (Wv (Proc.devRef .tc main_arg1)) := by
  simp only [hostOps0]; after_results <;> rfl
/-- The target ids are row 1 of the edge list. -/
theorem first_dst : StableHlo.after (hostOps0 (F := F)) Wv (Proc.devRef .tc main_v3) = dstIds (Wv (Proc.devRef .tc main_arg1)) := by
  simp only [hostOps0]; after_results <;> rfl
/-- The first stretch does not write `main_arg0`. -/
theorem first_keeps_arg0 : StableHlo.after (hostOps0 (F := F)) Wv (Proc.devRef .tc main_arg0) = Wv (Proc.devRef .tc main_arg0) := by
  simp only [hostOps0]; after_results
/-- The first stretch does not write `main_arg2`. -/
theorem first_keeps_arg2 : StableHlo.after (hostOps0 (F := F)) Wv (Proc.devRef .tc main_arg2) = Wv (Proc.devRef .tc main_arg2) := by
  simp only [hostOps0]; after_results
/-- The first stretch does not write `main_arg3`. -/
theorem first_keeps_arg3 : StableHlo.after (hostOps0 (F := F)) Wv (Proc.devRef .tc main_arg3) = Wv (Proc.devRef .tc main_arg3) := by
  simp only [hostOps0]; after_results
/-- The first stretch does not write `main_arg4`. -/
theorem first_keeps_arg4 : StableHlo.after (hostOps0 (F := F)) Wv (Proc.devRef .tc main_arg4) = Wv (Proc.devRef .tc main_arg4) := by
  simp only [hostOps0]; after_results
/-- The first stretch does not write `main_arg5`. -/
theorem first_keeps_arg5 : StableHlo.after (hostOps0 (F := F)) Wv (Proc.devRef .tc main_arg5) = Wv (Proc.devRef .tc main_arg5) := by
  simp only [hostOps0]; after_results
/-- The first stretch does not write `main_arg6`. -/
theorem first_keeps_arg6 : StableHlo.after (hostOps0 (F := F)) Wv (Proc.devRef .tc main_arg6) = Wv (Proc.devRef .tc main_arg6) := by
  simp only [hostOps0]; after_results

/-! ## The second stretch: the first aggregation, and the first bias as a row -/

set_option maxHeartbeats 1000000 in
/-- The aggregated first layer: `spread16` of the ids, the edge weights and the first region's output. -/
theorem second_agg : StableHlo.after (hostOps1 (F := F)) Wv (Proc.devRef .tc main_v17)
    = spread16 (Wv (Proc.devRef .tc main_v1)) (Wv (Proc.devRef .tc main_v3)) (Wv (Proc.devRef .tc main_arg2)) (Wv (Proc.devRef .tc main_v4)) := by
  simp only [hostOps1]; after_results_simp <;> rfl
/-- The first bias, reshaped to one row. -/
theorem second_bias : StableHlo.after (hostOps1 (F := F)) Wv (Proc.devRef .tc main_v18) = asRow16 (Wv (Proc.devRef .tc main_arg4)) := by
  simp only [hostOps1]; after_results <;> rfl
/-- The second stretch does not write `main_v1`. -/
theorem second_keeps_v1 : StableHlo.after (hostOps1 (F := F)) Wv (Proc.devRef .tc main_v1) = Wv (Proc.devRef .tc main_v1) := by
  simp only [hostOps1]; after_results
/-- The second stretch does not write `main_v3`. -/
theorem second_keeps_v3 : StableHlo.after (hostOps1 (F := F)) Wv (Proc.devRef .tc main_v3) = Wv (Proc.devRef .tc main_v3) := by
  simp only [hostOps1]; after_results
/-- The second stretch does not write `main_arg2`. -/
theorem second_keeps_arg2 : StableHlo.after (hostOps1 (F := F)) Wv (Proc.devRef .tc main_arg2) = Wv (Proc.devRef .tc main_arg2) := by
  simp only [hostOps1]; after_results
/-- The second stretch does not write `main_arg5`. -/
theorem second_keeps_arg5 : StableHlo.after (hostOps1 (F := F)) Wv (Proc.devRef .tc main_arg5) = Wv (Proc.devRef .tc main_arg5) := by
  simp only [hostOps1]; after_results
/-- The second stretch does not write `main_arg6`. -/
theorem second_keeps_arg6 : StableHlo.after (hostOps1 (F := F)) Wv (Proc.devRef .tc main_arg6) = Wv (Proc.devRef .tc main_arg6) := by
  simp only [hostOps1]; after_results

/-! ## The third stretch: the second aggregation, and the second bias as a row -/

set_option maxHeartbeats 1000000 in
/-- The aggregated second layer: `spread7` of the ids, the edge weights and the second region's output. -/
theorem third_agg : StableHlo.after (hostOps2 (F := F)) Wv (Proc.devRef .tc main_v32)
    = spread7 (Wv (Proc.devRef .tc main_v1)) (Wv (Proc.devRef .tc main_v3)) (Wv (Proc.devRef .tc main_arg2)) (Wv (Proc.devRef .tc main_v19)) := by
  simp only [hostOps2]; after_results_simp <;> rfl
/-- The second bias, reshaped to one row. -/
theorem third_bias : StableHlo.after (hostOps2 (F := F)) Wv (Proc.devRef .tc main_v33) = asRow7 (Wv (Proc.devRef .tc main_arg6)) := by
  simp only [hostOps2]; after_results <;> rfl

end Cert.KernelIdeal.Stretches

end
-- ==== Proof.Linear1.lean ====
/-
  The first kernel region computes the first linear map, 5000 rows at a time.

  At grid point t the body loads rows 5000·t … 5000·t + 4999 of x (all 512 columns) and the whole of W, multiplies
  them into a zero accumulator, and stores the 5000 × 16 product; the pipeline writes it back as rows
  5000·t … 5000·t + 4999 of the output. Entry (p, q) of that block is the sum over k of x(5000·t + p, k)·W(k, q), which is
  entry (5000·t + p, q) of `Gcn.feat x W`. The 20 blocks tile the 100000 rows, so the output array ends as `Gcn.feat`
  of the region's two input arrays, whatever those hold when the region is entered.
-/
import proofs.«174718_j90288802497036_2_alg».proof.Proof.Gen.KernelIdeal.Frame
import proofs.«174718_j90288802497036_2_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-! ## The product's operand indices: row of the left operand, column of the right, the contracted coordinate between -/

theorem lhs_row (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_contr (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhs_contr (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhs_col (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- ONE BLOCK OF THE PRODUCT: what the body leaves in the output's staging buffer, at (p, q), is the sum over k of the
    left block at (p, k) times the right block at (k, q); the zero accumulator adds nothing. -/
theorem block_apply (x0 : Vec Ideal S5000x512 .f32) (x1 : Vec Ideal S512x16 .f32) (p : Fin 5000) (q : Fin 16) :
    out0_2 x0 x1 (ix2 p q) = ∑ k : Fin 512, x0 (ix2 p k) * x1 (ix2 k q) := by
  unfold out0_2
  rw [View.canon_unit_zero zero_offsets]
  simp only [View.ld_unit_zero (S := S5000x512) zero_offsets, View.ld_unit_zero (S := S512x16) zero_offsets]
  unfold k0_pay1
  show FloatOps.matmul (F := Ideal) (φ₁ := .f32) (φ₂ := .f32) dot_S5000x512_S512x16_S5000x16_1_0_0_1_n_n none x0 x1 (constant S5000x16 .f32 0x00000000#32) (ix2 p q) = _
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx (ix2 p q) ((ValueIdx.contrEquiv1 dot_S5000x512_S512x16_S5000x16_1_0_0_1_n_n 512 rfl rfl).symm k) = ix2 p k := funext fun a => Fin.ext (by
    match a with
    | ⟨0, _⟩ => exact lhs_row _ _
    | ⟨1, _⟩ => exact (lhs_contr _ _).trans hk)
  have er : dot_S5000x512_S512x16_S5000x16_1_0_0_1_n_n.rhsIdx (ix2 p q) ((ValueIdx.contrEquiv1 dot_S5000x512_S512x16_S5000x16_1_0_0_1_n_n 512 rfl rfl).symm k) = ix2 k q := funext fun a => Fin.ext (by
    match a with
    | ⟨0, _⟩ => exact (rhs_contr _ _).trans hk
    | ⟨1, _⟩ => exact rhs_col _ _)
  rw [el, er]

/-! ## The region at entry contents `V` -/

variable (V : (c : Dev nD) → (b : Ref sig .tc) → Buf (Elt Ideal) ((c : Thread nD τ).loc b))

/-- The printed index maps over the grid: the row-blocked windows sit at block row t, the weight window at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left input block at point t is rows 5000·t … of the region's first array. -/
theorem left_block (c : Dev nD) (t : Fin cfg0.N) (p : Fin 5000) (k : Fin 512) (hr : 5000 * t.val + p.val < 100000) :
    (iblk0 V c 0 t : Vec Ideal S5000x512 .f32) (ix2 p k) = (V c main_arg0 : S100000x512.Idx → EReal) (at2 (5000 * t.val + p.val) hr k.val k.isLt) := by
  obtain ⟨e0, e1, -⟩ := index_facts t
  unfold iblk0
  rw [View.read_apply]
  show (V c main_arg0 : S100000x512.Idx → EReal) _ = _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 512 + 1 * k.val = k.val; rw [e1]; omega

/-- The right input block at every point is the whole of the region's second array. -/
theorem right_block (c : Dev nD) (t : Fin cfg0.N) (k : Fin 512) (q : Fin 16) :
    (iblk0 V c 1 t : Vec Ideal S512x16 .f32) (ix2 k q) = (V c main_arg3 : S512x16.Idx → EReal) (ix2 k q) := by
  obtain ⟨-, -, e0, e1, -⟩ := index_facts t
  unfold iblk0
  rw [View.read_apply]
  show (V c main_arg3 : S512x16.Idx → EReal) _ = _
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 16 + 1 * q.val = q.val; rw [e1]; omega

/-- WHAT POINT t WRITES BACK is block t of `Gcn.feat` of the two input arrays. -/
theorem flushed_eq (c : Dev nD) (t : Fin cfg0.N) :
    (dat0 V c).flushed 2 t = ((cfg0.win 2).blk t).view.read (Elt Ideal) (feat (V c main_arg0) (V c main_arg3)) := by
  have hN : cfg0.N = 20 := N_0
  have ht : t.val < 20 := hN ▸ t.isLt
  obtain ⟨-, -, -, -, e0, e1⟩ := index_facts t
  show (cfg0.win 2).cut (grid0.coords t) ((dat0 V c).after 2 t) = _
  rw [after0_2]
  funext j
  rw [View.read_apply]
  have hj0 : (j 0).val < 5000 := (j 0).isLt
  have hj1 : (j 1).val < 16 := (j 1).isLt
  have hj : j = ix2 (⟨(j 0).val, hj0⟩ : Fin 5000) (⟨(j 1).val, hj1⟩ : Fin 16) := funext fun a => by
    match a with
    | ⟨0, _⟩ => rfl
    | ⟨1, _⟩ => rfl
  have hi0 : ((((cfg0.win 2).blk t).view.emb j) 0).val = 5000 * t.val + (j 0).val := by
    show win0_2.index t (0 : Fin 2) * 5000 + 1 * (j 0).val = _; rw [e0]; omega
  have hi1 : ((((cfg0.win 2).blk t).view.emb j) 1).val = (j 1).val := by
    show win0_2.index t (1 : Fin 2) * 16 + 1 * (j 1).val = _; rw [e1]; omega
  refine Eq.trans (congrArg (out0_2 (iblk0 V c 0 t) (iblk0 V c 1 t)) hj) ?_
  refine (block_apply (iblk0 V c 0 t) (iblk0 V c 1 t) ⟨(j 0).val, hj0⟩ ⟨(j 1).val, hj1⟩).trans ?_
  unfold feat
  refine Finset.sum_congr rfl fun k _ => ?_
  rw [left_block V c t ⟨(j 0).val, hj0⟩ k (by show 5000 * t.val + (j 0).val < 100000; omega), right_block V c t k ⟨(j 1).val, hj1⟩]
  refine congrArg₂ (· * ·) (congrArg _ ?_) (congrArg _ ?_)
  · funext a; apply Fin.ext
    match a with
    | ⟨0, _⟩ => exact hi0.symm
    | ⟨1, _⟩ => rfl
  · funext a; apply Fin.ext
    match a with
    | ⟨0, _⟩ => rfl
    | ⟨1, _⟩ => exact hi1.symm

/-- An index of the output array is in point t's block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- Every row of the output lies in the block of point (row / 5000). -/
theorem covered (i : S100000x16.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  let t : Fin cfg0.N := ⟨(i 0).val / 5000, by rw [hN]; omega⟩
  obtain ⟨-, -, -, -, e0, e1⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 16 ≤ (i 1).val ∧ (i 1).val < win0_2.index t (1 : Fin 2) * 16 + 16; rw [e1]; omega

/-- THE OUTPUT ARRAY after the region: the first linear map of the region's two input arrays. -/
theorem final (c : Dev nD) : (dat0 V c).arrAt 2 cfg0.N = feat (V c main_arg0) (V c main_arg3) :=
  (dat0 V c).arrAt_eq_of_cover 2 (feat (V c main_arg0) (V c main_arg3)) (fun t _ => flushed_eq V c t) covered

end Cert.KernelIdeal.Linear1

end
-- ==== Proof.Linear2.lean ====
/-
  The second kernel region computes bias, rectifier and the second linear map, 5000 rows at a time.

  At grid point t the body loads rows 5000·t … 5000·t + 4999 of the aggregated first layer a (16 columns), the bias as a
  1 × 16 row and the whole of W (16 × 7); it adds the bias row to every row, takes the maximum with zero, multiplies by W
  into a zero accumulator and stores the 5000 × 7 product, which the pipeline writes back as rows 5000·t … of the output.
  Entry (p, q) of the block is the sum over k of max(a(5000·t + p, k) + b(k), 0)·W(k, q): entry (5000·t + p, q) of
  `Gcn.hidden a b W`. The 20 blocks tile the 100000 rows, so the output array ends as `Gcn.hidden` of the region's three
  input arrays, whatever those hold when the region is entered.
-/
import proofs.«174718_j90288802497036_2_alg».proof.Proof.Gen.KernelIdeal.Frame
import proofs.«174718_j90288802497036_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear2

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-! ## The product's operand indices: row of the left operand, column of the right, the contracted coordinate between -/

theorem lhs_row (i : S5000x7.Idx) (q : dot_S5000x16_S16x7_S5000x7_1_0_0_1_n_n.contr.Idx) :
    (dot_S5000x16_S16x7_S5000x7_1_0_0_1_n_n.lhsIdx i q 0).val = (i 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem lhs_contr (i : S5000x7.Idx) (q : dot_S5000x16_S16x7_S5000x7_1_0_0_1_n_n.contr.Idx) :
    (dot_S5000x16_S16x7_S5000x7_1_0_0_1_n_n.lhsIdx i q 1).val = (q ⟨0, by decide⟩).val :=
  dot_S5000x16_S16x7_S5000x7_1_0_0_1_n_n.lhsIdx_val_of_single rfl i q
theorem rhs_contr (i : S5000x7.Idx) (q : dot_S5000x16_S16x7_S5000x7_1_0_0_1_n_n.contr.Idx) :
    (dot_S5000x16_S16x7_S5000x7_1_0_0_1_n_n.rhsIdx i q 0).val = (q ⟨0, by decide⟩).val :=
  dot_S5000x16_S16x7_S5000x7_1_0_0_1_n_n.rhsIdx_val_of_single rfl i q
theorem rhs_col (i : S5000x7.Idx) (q : dot_S5000x16_S16x7_S5000x7_1_0_0_1_n_n.contr.Idx) :
    (dot_S5000x16_S16x7_S5000x7_1_0_0_1_n_n.rhsIdx i q 1).val = (i 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- The rectified, biased block at (p, k): the bias row is laid along every row, and the floor is the word of zero. -/
theorem rectified_apply (x0 : Vec Ideal S5000x16 .f32) (x1 : Vec Ideal S1x16 .f32)
    (h0 : S5000x16.ShapeCasts S5000x16) (h1 : S1x16.ShapeCasts S1x16) (hb : S1x16.Broadcasts S5000x16) (p : Fin 5000) (k : Fin 16) :
    maximumf (F := Ideal) (φ := .f32) (addf (F := Ideal) (φ := .f32) (shapeCast S5000x16 x0 h0) (broadcastTo S5000x16 (shapeCast S1x16 x1 h1) hb))
        (broadcast S5000x16 (Scalar.ofBits (F := Ideal) .f32 0x00000000#32)) (ix2 p k)
      = max (x0 (ix2 p k) + x1 (ix2 (0 : Fin 1) k)) zeroW := by
  show max (shapeCast S5000x16 x0 h0 (ix2 p k) + broadcastTo S5000x16 (shapeCast S1x16 x1 h1) hb (ix2 p k)) (Ideal.ofBits .f32 0x00000000#32) = _
  rw [shapeCast_self, shapeCast_self, broadcastTo_1b_ab_apply]

/-- ONE BLOCK OF THE PRODUCT: what the body leaves in the output's staging buffer, at (p, q), is the sum over k of the
    rectified, biased left block at (p, k) times the right block at (k, q); the zero accumulator adds nothing. -/
theorem block_apply (x0 : Vec Ideal S5000x16 .f32) (x1 : Vec Ideal S1x16 .f32) (x2 : Vec Ideal S16x7 .f32) (p : Fin 5000) (q : Fin 7) :
    out1_3 x0 x1 x2 (ix2 p q) = ∑ k : Fin 16, max (x0 (ix2 p k) + x1 (ix2 (0 : Fin 1) k)) zeroW * x2 (ix2 k q) := by
  unfold out1_3
  rw [View.canon_unit_zero zero_offsets]
  simp only [View.ld_unit_zero (S := S5000x16) zero_offsets, View.ld_unit_zero (S := S1x16) zero_offsets, View.ld_unit_zero (S := S16x7) zero_offsets]
  unfold k1_pay1
  show FloatOps.matmul (F := Ideal) (φ₁ := .f32) (φ₂ := .f32) dot_S5000x16_S16x7_S5000x7_1_0_0_1_n_n none
      (maximumf (F := Ideal) (φ := .f32) (addf (F := Ideal) (φ := .f32) (shapeCast S5000x16 x0 _) (broadcastTo S5000x16 (shapeCast S1x16 x1 _) _))
        (broadcast S5000x16 (Scalar.ofBits (F := Ideal) .f32 0x00000000#32)))
      x2 (constant S5000x7 .f32 0x00000000#32) (ix2 p q) = _
  rw [Ideal.matmul_constant_zero_apply, ← Equiv.sum_comp (ValueIdx.contrEquiv1 dot_S5000x16_S16x7_S5000x7_1_0_0_1_n_n 16 rfl rfl).symm]
  refine Finset.sum_congr rfl fun k _ => ?_
  have hk := ValueIdx.contrEquiv1_symm_val dot_S5000x16_S16x7_S5000x7_1_0_0_1_n_n 16 rfl rfl k
  have el : dot_S5000x16_S16x7_S5000x7_1_0_0_1_n_n.lhsIdx (ix2 p q) ((ValueIdx.contrEquiv1 dot_S5000x16_S16x7_S5000x7_1_0_0_1_n_n 16 rfl rfl).symm k) = ix2 p k := funext fun a => Fin.ext (by
    match a with
    | ⟨0, _⟩ => exact lhs_row _ _
    | ⟨1, _⟩ => exact (lhs_contr _ _).trans hk)
  have er : dot_S5000x16_S16x7_S5000x7_1_0_0_1_n_n.rhsIdx (ix2 p q) ((ValueIdx.contrEquiv1 dot_S5000x16_S16x7_S5000x7_1_0_0_1_n_n 16 rfl rfl).symm k) = ix2 k q := funext fun a => Fin.ext (by
    match a with
    | ⟨0, _⟩ => exact (rhs_contr _ _).trans hk
    | ⟨1, _⟩ => exact rhs_col _ _)
  rw [el, er]
  exact congrArg (· * x2 (ix2 k q)) (rectified_apply x0 x1 _ _ _ p k)

/-! ## The region at entry contents `V` -/

variable (V : (c : Dev nD) → (b : Ref sig .tc) → Buf (Elt Ideal) ((c : Thread nD τ).loc b))

/-- The printed index maps over the grid: the row-blocked windows sit at block row t, the bias and weight windows at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left input block at point t is rows 5000·t … of the region's first array. -/
theorem left_block (c : Dev nD) (t : Fin cfg1.N) (p : Fin 5000) (k : Fin 16) (hr : 5000 * t.val + p.val < 100000) :
    (iblk1 V c 0 t : Vec Ideal S5000x16 .f32) (ix2 p k) = (V c main_v17 : S100000x16.Idx → EReal) (at2 (5000 * t.val + p.val) hr k.val k.isLt) := by
  obtain ⟨e0, e1, -⟩ := index_facts t
  unfold iblk1
  rw [View.read_apply]
  show (V c main_v17 : S100000x16.Idx → EReal) _ = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 16 + 1 * k.val = k.val; rw [e1]; omega

/-- The bias block at every point is the whole of the region's second array, a 1 × 16 row. -/
theorem bias_block (c : Dev nD) (t : Fin cfg1.N) (k : Fin 16) :
    (iblk1 V c 1 t : Vec Ideal S1x16 .f32) (ix2 (0 : Fin 1) k) = (V c main_v18 : S1x16.Idx → EReal) (ix2 (0 : Fin 1) k) := by
  obtain ⟨-, -, e0, e1, -⟩ := index_facts t
  unfold iblk1
  rw [View.read_apply]
  show (V c main_v18 : S1x16.Idx → EReal) _ = _
  refine congrArg _ (funext fun a => Fin.ext ?_)
  match a with
  | ⟨0, _⟩ => show win1_1.index t (0 : Fin 2) * 1 + 1 * 0 = 0; rw [e0]
  | ⟨1, _⟩ => show win1_1.index t (1 : Fin 2) * 16 + 1 * k.val = k.val; rw [e1]; omega

/-- The right input block at every point is the whole of the region's third array. -/
theorem right_block (c : Dev nD) (t : Fin cfg1.N) (k : Fin 16) (q : Fin 7) :
    (iblk1 V c 2 t : Vec Ideal S16x7 .f32) (ix2 k q) = (V c main_arg5 : S16x7.Idx → EReal) (ix2 k q) := by
  obtain ⟨-, -, -, -, e0, e1, -⟩ := index_facts t
  unfold iblk1
  rw [View.read_apply]
  show (V c main_arg5 : S16x7.Idx → EReal) _ = _
  refine congrArg _ (funext fun a => Fin.ext ?_)
  match a with
  | ⟨0, _⟩ => show win1_2.index t (0 : Fin 2) * 16 + 1 * k.val = k.val; rw [e0]; omega
  | ⟨1, _⟩ => show win1_2.index t (1 : Fin 2) * 7 + 1 * q.val = q.val; rw [e1]; omega

/-- WHAT POINT t WRITES BACK is block t of `Gcn.hidden` of the three input arrays. -/
theorem flushed_eq (c : Dev nD) (t : Fin cfg1.N) :
    (dat1 V c).flushed 3 t = ((cfg1.win 3).blk t).view.read (Elt Ideal) (Gcn.hidden (V c main_v17) (rowOf (V c main_v18)) (V c main_arg5)) := by
  have hN : cfg1.N = 20 := N_1
  have ht : t.val < 20 := hN ▸ t.isLt
  obtain ⟨-, -, -, -, -, -, e0, e1⟩ := index_facts t
  show (cfg1.win 3).cut (grid1.coords t) ((dat1 V c).after 3 t) = _
  rw [after1_3]
  funext j
  rw [View.read_apply]
  have hj0 : (j 0).val < 5000 := (j 0).isLt
  have hj1 : (j 1).val < 7 := (j 1).isLt
  have hj : j = ix2 (⟨(j 0).val, hj0⟩ : Fin 5000) (⟨(j 1).val, hj1⟩ : Fin 7) := funext fun a => by
    match a with
    | ⟨0, _⟩ => rfl
    | ⟨1, _⟩ => rfl
  have hi0 : ((((cfg1.win 3).blk t).view.emb j) 0).val = 5000 * t.val + (j 0).val := by
    show win1_3.index t (0 : Fin 2) * 5000 + 1 * (j 0).val = _; rw [e0]; omega
  have hi1 : ((((cfg1.win 3).blk t).view.emb j) 1).val = (j 1).val := by
    show win1_3.index t (1 : Fin 2) * 7 + 1 * (j 1).val = _; rw [e1]; omega
  refine Eq.trans (congrArg (out1_3 (iblk1 V c 0 t) (iblk1 V c 1 t) (iblk1 V c 2 t)) hj) ?_
  refine (block_apply (iblk1 V c 0 t) (iblk1 V c 1 t) (iblk1 V c 2 t) ⟨(j 0).val, hj0⟩ ⟨(j 1).val, hj1⟩).trans ?_
  unfold Gcn.hidden
  refine Finset.sum_congr rfl fun k _ => ?_
  rw [left_block V c t ⟨(j 0).val, hj0⟩ k (by show 5000 * t.val + (j 0).val < 100000; omega), bias_block V c t k, right_block V c t k ⟨(j 1).val, hj1⟩]
  refine congrArg₂ (· * ·) (congrArg (max · zeroW) (congrArg₂ (· + ·) (congrArg _ ?_) rfl)) (congrArg _ ?_)
  · funext a; apply Fin.ext
    match a with
    | ⟨0, _⟩ => exact hi0.symm
    | ⟨1, _⟩ => rfl
  · funext a; apply Fin.ext
    match a with
    | ⟨0, _⟩ => rfl
    | ⟨1, _⟩ => exact hi1.symm

/-- An index of the output array is in point t's block iff each coordinate is in the block's range on its axis. -/
theorem mem_block (t : Fin cfg1.N) (i : S100000x7.Idx) :
    i ∈ ((cfg1.win 3).blk t).view.set ↔ ∀ a : Fin 2, win1_3.index t a * S5000x7.size a ≤ (i a).val ∧ (i a).val < win1_3.index t a * S5000x7.size a + S5000x7.size a := by
  show i ∈ ((View.whole main_v19).slice (win1_3.rect t)).set ↔ _
  rw [View.set_slice_whole, Rect.mem_set_unit]
  exact Iff.rfl

/-- Every row of the output lies in the block of point (row / 5000). -/
theorem covered (i : S100000x7.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 7 := (i 1).isLt
  let t : Fin cfg1.N := ⟨(i 0).val / 5000, by rw [hN]; omega⟩
  obtain ⟨-, -, -, -, -, -, e0, e1⟩ := index_facts t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 7 ≤ (i 1).val ∧ (i 1).val < win1_3.index t (1 : Fin 2) * 7 + 7; rw [e1]; omega

/-- THE OUTPUT ARRAY after the region: bias, rectifier and the second linear map of the region's three input arrays. -/
theorem final (c : Dev nD) : (dat1 V c).arrAt 3 cfg1.N = Gcn.hidden (V c main_v17) (rowOf (V c main_v18)) (V c main_arg5) :=
  (dat1 V c).arrAt_eq_of_cover 3 (Gcn.hidden (V c main_v17) (rowOf (V c main_v18)) (V c main_arg5)) (fun t _ => flushed_eq V c t) covered

end Cert.KernelIdeal.Linear2

end
-- ==== Proof.Softmax.lean ====
/-
  The third kernel region adds the last bias and takes a row-wise log-softmax, 5000 rows at a time.

  At grid point t the body loads rows 5000·t … 5000·t + 4999 of the aggregated second layer a (7 columns) and the bias as a
  1 × 7 row. It forms the scores z = a + b (the bias row laid along every row), each row's maximum M (a fold of `max` over
  the 7 columns from the word of −∞), the shifted scores z − M, each row's sum of their exponentials, and stores
  (z − M) − log of that sum; the pipeline writes the 5000 × 7 result back as rows 5000·t … of the output. A row's maximum and
  sum involve that row only, and the block's rows are rows 5000·t … of the whole matrix, so entry (p, q) of the block is entry
  (5000·t + p, q) of `Gcn.logSoftmax (Gcn.scores a b)`. The 20 blocks tile the 100000 rows, so the output array ends as that
  function of the region's two input arrays, whatever those hold when the region is entered.
-/
import proofs.«174718_j90288802497036_2_alg».proof.Proof.Gen.KernelIdeal.Frame
import proofs.«174718_j90288802497036_2_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Softmax

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-! ## The layout steps of a reduction that keeps its axis: a column of row values, laid along every row -/

/-- A vector of 5000 row values cast to a 5000 × 1 column reads, at (p, 0), the value of row p. -/
theorem column_apply {α : Type} (v : S5000.Idx → α) (h : S5000.ShapeCasts S5000x1) (p : Fin 5000) :
    shapeCast S5000x1 v h (ix2 p (0 : Fin 1)) = v (ix1 p) :=
  shapeCast_apply v h _ _ (by
    rw [Shape.rowMajor_val_one, Shape.rowMajor_val_two]
    show p.val = p.val * 1 + 0
    omega)

/-- A 5000 × 1 column broadcast to 5000 × 7 reads, at (p, q), the column at (p, 0). -/
theorem spread_apply {α : Type} (w : S5000x1.Idx → α) (h : S5000x1.Broadcasts S5000x7) (p : Fin 5000) (q : Fin 7) :
    broadcastTo S5000x7 w h (ix2 p q) = w (ix2 p (0 : Fin 1)) := by
  refine broadcastTo_apply w h (ix2 p q) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else q.val; rw [if_pos rfl]

/-- Row p with column k put back is (p, k). -/
theorem lift_row (h : S5000x7.Reduces [1] S5000) (p : Fin 5000) (k : Fin (S5000x7.size 1)) :
    h.lift (ix1 p) k = ix2 p (⟨k.val, k.isLt⟩ : Fin 7) := by
  funext c; apply Fin.ext
  fin_cases c <;> rfl

/-- A row's maximum: the reduction over the columns, from the word of −∞, is the fold of `max` over the row's 7 entries. -/
theorem rowmax_apply (z : FVec Ideal S5000x7 .f32) (h : S5000x7.Reduces [1] S5000) (hφ : FKind.Formats .f32)
    (hacc : (0xFF800000#32 : BitVec FTy.f32.bits) = FKind.maximumf.neutral .f32 hφ) (p : Fin 5000) :
    multiReduction .maximumf [1] S5000 z 0xFF800000#32 h hφ hacc (ix1 p)
      = (Finset.univ : Finset (Fin 7)).fold max negInf fun k => z (ix2 p k) := by
  rw [Ideal.multiReduction_maximumf_single]
  exact congrArg (fun f => Finset.fold max negInf f (Finset.univ : Finset (Fin 7))) (funext fun k => congrArg z (lift_row h p k))

/-- A row's sum: the reduction over the columns is the sum of the row's 7 entries. -/
theorem rowsum_apply (e : FVec Ideal S5000x7 .f32) (h : S5000x7.Reduces [1] S5000) (hφ : FKind.Formats .f32)
    (hacc : (0x00000000#32 : BitVec FTy.f32.bits) = FKind.add.neutral .f32 hφ) (p : Fin 5000) :
    multiReduction .add [1] S5000 e 0x00000000#32 h hφ hacc (ix1 p) = ∑ k : Fin 7, e (ix2 p k) := by
  rw [Ideal.multiReduction_add_single]
  exact Finset.sum_congr rfl fun k _ => congrArg e (lift_row h p k)

/-! ## One block -/

/-- The block's biased scores: z(p, c) = x0(p, c) + x1(0, c), the bias row laid along every row. -/
def blockScores (x0 : Vec Ideal S5000x7 .f32) (x1 : Vec Ideal S1x7 .f32) : S5000x7.Idx → EReal :=
  fun j => x0 j + x1 (ix2 (0 : Fin 1) (⟨(j 1).val, (j 1).isLt⟩ : Fin 7))

/-- The maximum of row p of the block's scores. -/
def blockMax (x0 : Vec Ideal S5000x7 .f32) (x1 : Vec Ideal S1x7 .f32) (p : Fin 5000) : EReal :=
  (Finset.univ : Finset (Fin 7)).fold max negInf fun k => blockScores x0 x1 (ix2 p k)

theorem scores_eq (x0 : Vec Ideal S5000x7 .f32) (x1 : Vec Ideal S1x7 .f32)
    (h0 : S5000x7.ShapeCasts S5000x7) (h1 : S1x7.ShapeCasts S1x7) (hb : S1x7.Broadcasts S5000x7) :
    addf (F := Ideal) (φ := .f32) (shapeCast S5000x7 x0 h0) (broadcastTo S5000x7 (shapeCast S1x7 x1 h1) hb) = blockScores x0 x1 := by
  funext j
  obtain ⟨p, q, rfl⟩ : ∃ (p : Fin 5000) (q : Fin 7), j = ix2 p q := ⟨j 0, j 1, eq_ix2 j⟩
  show shapeCast S5000x7 x0 h0 (ix2 p q) + broadcastTo S5000x7 (shapeCast S1x7 x1 h1) hb (ix2 p q) = x0 (ix2 p q) + x1 (ix2 (0 : Fin 1) q)
  rw [shapeCast_self, shapeCast_self, broadcastTo_1b_ab_apply]

/-- The log-softmax of a 5000 × 7 block z, as the body spells it, read at (p, q): with M the maximum of row p,
    (z(p, q) − M) − log (the sum over k of exp (z(p, k) − M)). -/
theorem softmax_block (z : FVec Ideal S5000x7 .f32) (h : S5000x7.Reduces [1] S5000) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : S5000.ShapeCasts S5000x1) (hb : S5000x1.Broadcasts S5000x7) (p : Fin 5000) (q : Fin 7) :
    subf (F := Ideal) (φ := .f32)
        (subf (F := Ideal) (φ := .f32) z (broadcastTo S5000x7 (shapeCast S5000x1 (multiReduction .maximumf [1] S5000 z 0xFF800000#32 h hφ hmax) hc) hb))
        (broadcastTo S5000x7 (log (F := Ideal) (φ := .f32) (shapeCast S5000x1 (multiReduction .add [1] S5000
          (exp (F := Ideal) (φ := .f32) (subf (F := Ideal) (φ := .f32) z (broadcastTo S5000x7 (shapeCast S5000x1 (multiReduction .maximumf [1] S5000 z 0xFF800000#32 h hφ hmax) hc) hb)))
          0x00000000#32 h hφ hadd) hc)) hb)
        (ix2 p q)
      = (z (ix2 p q) - (Finset.univ : Finset (Fin 7)).fold max negInf fun k => z (ix2 p k))
          - Ideal.log (∑ k : Fin 7, Ideal.exp (z (ix2 p k) - (Finset.univ : Finset (Fin 7)).fold max negInf fun k' => z (ix2 p k'))) := by
  have hM : ∀ q' : Fin 7, broadcastTo S5000x7 (shapeCast S5000x1 (multiReduction .maximumf [1] S5000 z 0xFF800000#32 h hφ hmax) hc) hb (ix2 p q')
      = (Finset.univ : Finset (Fin 7)).fold max negInf fun k => z (ix2 p k) := fun q' => by
    rw [spread_apply, column_apply, rowmax_apply]
  show (z (ix2 p q) - broadcastTo S5000x7 (shapeCast S5000x1 (multiReduction .maximumf [1] S5000 z 0xFF800000#32 h hφ hmax) hc) hb (ix2 p q))
      - broadcastTo S5000x7 (log (F := Ideal) (φ := .f32) (shapeCast S5000x1 (multiReduction .add [1] S5000
          (exp (F := Ideal) (φ := .f32) (subf (F := Ideal) (φ := .f32) z (broadcastTo S5000x7 (shapeCast S5000x1 (multiReduction .maximumf [1] S5000 z 0xFF800000#32 h hφ hmax) hc) hb)))
          0x00000000#32 h hφ hadd) hc)) hb (ix2 p q) = _
  rw [hM q, spread_apply]
  show _ - Ideal.log (shapeCast S5000x1 (multiReduction .add [1] S5000
          (exp (F := Ideal) (φ := .f32) (subf (F := Ideal) (φ := .f32) z (broadcastTo S5000x7 (shapeCast S5000x1 (multiReduction .maximumf [1] S5000 z 0xFF800000#32 h hφ hmax) hc) hb)))
          0x00000000#32 h hφ hadd) hc (ix2 p (0 : Fin 1))) = _
  rw [column_apply, rowsum_apply]
  refine congrArg (fun s => _ - Ideal.log s) (Finset.sum_congr rfl fun k _ => ?_)
  show Ideal.exp (z (ix2 p k) - broadcastTo S5000x7 (shapeCast S5000x1 (multiReduction .maximumf [1] S5000 z 0xFF800000#32 h hφ hmax) hc) hb (ix2 p k)) = _
  rw [hM k]

/-- ONE BLOCK: what the body leaves in the output's staging buffer, at (p, q), is the log-softmax of the block's scores there. -/
theorem block_apply (x0 : Vec Ideal S5000x7 .f32) (x1 : Vec Ideal S1x7 .f32) (p : Fin 5000) (q : Fin 7) :
    out2_2 x0 x1 (ix2 p q) = (blockScores x0 x1 (ix2 p q) - blockMax x0 x1 p)
      - Ideal.log (∑ k : Fin 7, Ideal.exp (blockScores x0 x1 (ix2 p k) - blockMax x0 x1 p)) := by
  unfold out2_2
  rw [View.canon_unit_zero zero_offsets]
  simp only [View.ld_unit_zero (S := S5000x7) zero_offsets, View.ld_unit_zero (S := S1x7) zero_offsets]
  unfold k2_pay1
  dsimp only
  rw [scores_eq x0 x1]
  exact softmax_block (blockScores x0 x1) _ _ _ _ _ _ p q

/-- A block whose rows are rows 5000·T … of a matrix a, under a bias row b, holds at (p, q) the log-softmax of the biased
    matrix at (5000·T + p, q): the row's maximum and sum are taken over the same 7 entries on both sides. -/
theorem block_is_rows (A : S100000x7.Idx → EReal) (B : S1x7.Idx → EReal) (x0 : Vec Ideal S5000x7 .f32) (x1 : Vec Ideal S1x7 .f32)
    (T : Nat) (hx0 : ∀ (p : Fin 5000) (k : Fin 7) (hr : 5000 * T + p.val < 100000), x0 (ix2 p k) = A (at2 (5000 * T + p.val) hr k.val k.isLt))
    (hx1 : ∀ k : Fin 7, x1 (ix2 (0 : Fin 1) k) = B (ix2 (0 : Fin 1) k))
    (p : Fin 5000) (q : Fin 7) (i : S100000x7.Idx) (hi0 : (i 0).val = 5000 * T + p.val) (hi1 : (i 1).val = q.val) :
    out2_2 x0 x1 (ix2 p q) = logSoftmax (scores A (rowOf B)) i := by
  have hr : 5000 * T + p.val < 100000 := hi0 ▸ (i 0).isLt
  have hrow : ∀ k : Fin 7, blockScores x0 x1 (ix2 p k) = scores A (rowOf B) (at2 (i 0).val (i 0).isLt k.val k.isLt) := fun k => by
    show x0 (ix2 p k) + x1 (ix2 (0 : Fin 1) k) = A (at2 (i 0).val (i 0).isLt k.val k.isLt) + B (ix2 (0 : Fin 1) k)
    rw [hx0 p k hr, hx1 k]
    exact congrArg (· + B (ix2 (0 : Fin 1) k)) (congrArg A (funext fun a => Fin.ext (by
      match a with
      | ⟨0, _⟩ => exact hi0.symm
      | ⟨1, _⟩ => rfl)))
  have hmax : blockMax x0 x1 p = rowMax (scores A (rowOf B)) (i 0).val (i 0).isLt :=
    congrArg (fun f => Finset.fold max negInf f (Finset.univ : Finset (Fin 7))) (funext hrow)
  have hiq : i = at2 (i 0).val (i 0).isLt q.val q.isLt := funext fun a => Fin.ext (by
    match a with
    | ⟨0, _⟩ => rfl
    | ⟨1, _⟩ => exact hi1)
  rw [block_apply x0 x1 p q, hmax, hrow q]
  unfold logSoftmax
  exact congrArg₂ (· - ·)
    (congrArg (· - rowMax (scores A (rowOf B)) (i 0).val (i 0).isLt) (congrArg (scores A (rowOf B)) hiq.symm))
    (congrArg Ideal.log (Finset.sum_congr rfl fun k _ => by rw [hrow k]))

/-! ## The region at entry contents `V` -/

variable (V : (c : Dev nD) → (b : Ref sig .tc) → Buf (Elt Ideal) ((c : Thread nD τ).loc b))

/-- The printed index maps over the grid: the row-blocked windows sit at block row t, the bias window at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input block at point t is rows 5000·t … of the region's first array. -/
theorem left_block (c : Dev nD) (t : Fin cfg2.N) (p : Fin 5000) (k : Fin 7) (hr : 5000 * t.val + p.val < 100000) :
    (iblk2 V c 0 t : Vec Ideal S5000x7 .f32) (ix2 p k) = (V c main_v32 : S100000x7.Idx → EReal) (at2 (5000 * t.val + p.val) hr k.val k.isLt) := by
  obtain ⟨e0, e1, -⟩ := index_facts t
  unfold iblk2
  rw [View.read_apply]
  show (V c main_v32 : S100000x7.Idx → EReal) _ = _
  refine congrArg _ (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 7 + 1 * k.val = k.val; rw [e1]; omega

/-- The bias block at every point is the whole of the region's second array, a 1 × 7 row. -/
theorem bias_block (c : Dev nD) (t : Fin cfg2.N) (k : Fin 7) :
    (iblk2 V c 1 t : Vec Ideal S1x7 .f32) (ix2 (0 : Fin 1) k) = (V c main_v33 : S1x7.Idx → EReal) (ix2 (0 : Fin 1) k) := by
  obtain ⟨-, -, e0, e1, -⟩ := index_facts t
  unfold iblk2
  rw [View.read_apply]
  show (V c main_v33 : S1x7.Idx → EReal) _ = _
  refine congrArg _ (funext fun a => Fin.ext ?_)
  match a with
  | ⟨0, _⟩ => show win2_1.index t (0 : Fin 2) * 1 + 1 * 0 = 0; rw [e0]
  | ⟨1, _⟩ => show win2_1.index t (1 : Fin 2) * 7 + 1 * k.val = k.val; rw [e1]; omega

/-- WHAT POINT t WRITES BACK is block t of the log-softmax of the biased first array. -/
theorem flushed_eq (c : Dev nD) (t : Fin cfg2.N) :
    (dat2 V c).flushed 2 t = ((cfg2.win 2).blk t).view.read (Elt Ideal) (logSoftmax (scores (V c main_v32) (rowOf (V c main_v33)))) := by
  obtain ⟨-, -, -, -, e0, e1⟩ := index_facts t
  show (cfg2.win 2).cut (grid2.coords t) ((dat2 V c).after 2 t) = _
  rw [after2_2]
  funext j
  rw [View.read_apply]
  have hj0 : (j 0).val < 5000 := (j 0).isLt
  have hj1 : (j 1).val < 7 := (j 1).isLt
  have hj : j = ix2 (⟨(j 0).val, hj0⟩ : Fin 5000) (⟨(j 1).val, hj1⟩ : Fin 7) := funext fun a => by
    match a with
    | ⟨0, _⟩ => rfl
    | ⟨1, _⟩ => rfl
  have hi0 : ((((cfg2.win 2).blk t).view.emb j) 0).val = 5000 * t.val + (j 0).val := by
    show win2_2.index t (0 : Fin 2) * 5000 + 1 * (j 0).val = _; rw [e0]; omega
  have hi1 : ((((cfg2.win 2).blk t).view.emb j) 1).val = (j 1).val := by
    show win2_2.index t (1 : Fin 2) * 7 + 1 * (j 1).val = _; rw [e1]; omega
  refine Eq.trans (congrArg (out2_2 (iblk2 V c 0 t) (iblk2 V c 1 t)) hj) ?_
  exact block_is_rows (V c main_v32) (V c main_v33) (iblk2 V c 0 t) (iblk2 V c 1 t) t.val
    (fun p k hr => left_block V c t p k hr) (fun k => bias_block V c t k)
    ⟨(j 0).val, hj0⟩ ⟨(j 1).val, hj1⟩ (((cfg2.win 2).blk t).view.emb j) hi0 hi1

/-- An index of the output array is in point t's block iff each coordinate is in the block's range on its axis. -/
theorem mem_block (t : Fin cfg2.N) (i : S100000x7.Idx) :
    i ∈ ((cfg2.win 2).blk t).view.set ↔ ∀ a : Fin 2, win2_2.index t a * S5000x7.size a ≤ (i a).val ∧ (i a).val < win2_2.index t a * S5000x7.size a + S5000x7.size a := by
  show i ∈ ((View.whole main_v34).slice (win2_2.rect t)).set ↔ _
  rw [View.set_slice_whole, Rect.mem_set_unit]
  exact Iff.rfl

/-- Every row of the output lies in the block of point (row / 5000). -/
theorem covered (i : S100000x7.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 7 := (i 1).isLt
  let t : Fin cfg2.N := ⟨(i 0).val / 5000, by rw [hN]; omega⟩
  obtain ⟨-, -, -, -, e0, e1⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; rw [e0, ht]; omega
  | ⟨1, _⟩ => show win2_2.index t (1 : Fin 2) * 7 ≤ (i 1).val ∧ (i 1).val < win2_2.index t (1 : Fin 2) * 7 + 7; rw [e1]; omega

/-- THE OUTPUT ARRAY after the region: the row-wise log-softmax of the first input array under the bias row. -/
theorem final (c : Dev nD) : (dat2 V c).arrAt 2 cfg2.N = logSoftmax (scores (V c main_v32) (rowOf (V c main_v33))) :=
  (dat2 V c).arrAt_eq_of_cover 2 (logSoftmax (scores (V c main_v32) (rowOf (V c main_v33)))) (fun t _ => flushed_eq V c t) covered

end Cert.KernelIdeal.Softmax

end
-- ==== Proof.Boundaries.lean ====
/-
  The idealized kernel's result as the composition of the stages.

  @main is six segments: three stretches of host operations, each followed by a kernel region. The contents of the
  buffers at each boundary are followed from the launch: the first stretch leaves the edge list's two rows; the first
  region leaves `Gcn.feat` of x and the first weights; the second stretch aggregates it and reshapes the first bias to a
  row; the second region leaves `Gcn.hidden` of that; the third stretch aggregates again and reshapes the second bias; the
  third region leaves the biased row-wise log-softmax in the result buffer. A segment keeps every buffer it does not
  write, so each stage reads the launch arrays and the earlier stages' outputs unchanged.
-/
import proofs.«174718_j90288802497036_2_alg».proof.Proof.Gen.KernelIdeal.Frame
import proofs.«174718_j90288802497036_2_alg».proof.Proof.Stages
import proofs.«174718_j90288802497036_2_alg».proof.Proof.Aggregate
import proofs.«174718_j90288802497036_2_alg».proof.Proof.Stretches
import proofs.«174718_j90288802497036_2_alg».proof.Proof.Linear1
import proofs.«174718_j90288802497036_2_alg».proof.Proof.Linear2
import proofs.«174718_j90288802497036_2_alg».proof.Proof.Softmax
import Idealize.ShloMosaic.Lib.ValueLayout

set_option maxRecDepth 16384

noncomputable section

namespace Cert.KernelIdeal.Boundaries

open Cert.KernelIdeal Cert.KernelIdeal.Gen Cert.KernelIdeal.Aggregate Cert.Gcn
open Idealize.ShloMosaic Idealize.ShloMosaic.TcCoe Idealize.SL.Sem Idealize.ShloMosaic.ValueIdx

/-- A bias reshaped to one row, read back as a vector, is the bias. -/
theorem rowOf_asRow16 (b : (⟨S16, .f32⟩ : BufTy).Contents (Elt Ideal)) : rowOf (asRow16 b) = b := by
  funext j
  unfold rowOf asRow16
  rw [shapeCast_a_1a_apply]
  exact congrArg b (eq_ix1 j).symm
theorem rowOf_asRow7 (b : (⟨S7, .f32⟩ : BufTy).Contents (Elt Ideal)) : rowOf (asRow7 b) = b := by
  funext j
  unfold rowOf asRow7
  rw [shapeCast_a_1a_apply]
  exact congrArg b (eq_ix1 j).symm

variable (m : (ℓ : Loc nD τ sig) → Buf (Elt Ideal) ℓ) (ρ : Dev nD → PrngReg) (c : Dev nD)

/-! ## After the first stretch -/

theorem w1_src : W1 m ρ c (Proc.devRef .tc main_v1) = srcIds (m ((c : Thread nD τ).loc main_arg1)) := Stretches.first_src (W0 m ρ c)
theorem w1_dst : W1 m ρ c (Proc.devRef .tc main_v3) = dstIds (m ((c : Thread nD τ).loc main_arg1)) := Stretches.first_dst (W0 m ρ c)
theorem w1_arg0 : W1 m ρ c (Proc.devRef .tc main_arg0) = (m ((c : Thread nD τ).loc main_arg0)) := Stretches.first_keeps_arg0 (W0 m ρ c)
theorem w1_arg2 : W1 m ρ c (Proc.devRef .tc main_arg2) = (m ((c : Thread nD τ).loc main_arg2)) := Stretches.first_keeps_arg2 (W0 m ρ c)
theorem w1_arg3 : W1 m ρ c (Proc.devRef .tc main_arg3) = (m ((c : Thread nD τ).loc main_arg3)) := Stretches.first_keeps_arg3 (W0 m ρ c)
theorem w1_arg4 : W1 m ρ c (Proc.devRef .tc main_arg4) = (m ((c : Thread nD τ).loc main_arg4)) := Stretches.first_keeps_arg4 (W0 m ρ c)
theorem w1_arg5 : W1 m ρ c (Proc.devRef .tc main_arg5) = (m ((c : Thread nD τ).loc main_arg5)) := Stretches.first_keeps_arg5 (W0 m ρ c)
theorem w1_arg6 : W1 m ρ c (Proc.devRef .tc main_arg6) = (m ((c : Thread nD τ).loc main_arg6)) := Stretches.first_keeps_arg6 (W0 m ρ c)

/-! ## After the first region -/

theorem w2_feat : W2 m ρ c (Proc.devRef .tc main_v4) = feat (m ((c : Thread nD τ).loc main_arg0)) (m ((c : Thread nD τ).loc main_arg3)) :=
  ((W2_arr m ρ c 2).trans (Linear1.final (V1 m ρ) c)).trans (congrArg₂ feat (w1_arg0 m ρ c) (w1_arg3 m ρ c))
theorem w2_src : W2 m ρ c (Proc.devRef .tc main_v1) = srcIds (m ((c : Thread nD τ).loc main_arg1)) := (W2_of_ne m ρ c main_v1 (by decide)).trans (w1_src m ρ c)
theorem w2_dst : W2 m ρ c (Proc.devRef .tc main_v3) = dstIds (m ((c : Thread nD τ).loc main_arg1)) := (W2_of_ne m ρ c main_v3 (by decide)).trans (w1_dst m ρ c)
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)

/-! ## After the second stretch -/

theorem w3_agg : W3 m ρ c (Proc.devRef .tc main_v17) = spread16 (srcIds (m ((c : Thread nD τ).loc main_arg1))) (dstIds (m ((c : Thread nD τ).loc main_arg1))) (m ((c : Thread nD τ).loc main_arg2)) (feat (m ((c : Thread nD τ).loc main_arg0)) (m ((c : Thread nD τ).loc main_arg3))) := by
  refine (Stretches.second_agg (W2 m ρ c)).trans ?_
  rw [w2_src m ρ c, w2_dst m ρ c, w2_arg2 m ρ c, w2_feat m ρ c]
theorem w3_bias : W3 m ρ c (Proc.devRef .tc main_v18) = asRow16 (m ((c : Thread nD τ).loc main_arg4)) :=
  (Stretches.second_bias (W2 m ρ c)).trans (congrArg asRow16 (w2_arg4 m ρ c))
theorem w3_src : W3 m ρ c (Proc.devRef .tc main_v1) = srcIds (m ((c : Thread nD τ).loc main_arg1)) := (Stretches.second_keeps_v1 (W2 m ρ c)).trans (w2_src m ρ c)
theorem w3_dst : W3 m ρ c (Proc.devRef .tc main_v3) = dstIds (m ((c : Thread nD τ).loc main_arg1)) := (Stretches.second_keeps_v3 (W2 m ρ c)).trans (w2_dst m ρ c)
theorem w3_arg2 : W3 m ρ c (Proc.devRef .tc main_arg2) = (m ((c : Thread nD τ).loc main_arg2)) := (Stretches.second_keeps_arg2 (W2 m ρ c)).trans (w2_arg2 m ρ c)
theorem w3_arg5 : W3 m ρ c (Proc.devRef .tc main_arg5) = (m ((c : Thread nD τ).loc main_arg5)) := (Stretches.second_keeps_arg5 (W2 m ρ c)).trans (w2_arg5 m ρ c)
theorem w3_arg6 : W3 m ρ c (Proc.devRef .tc main_arg6) = (m ((c : Thread nD τ).loc main_arg6)) := (Stretches.second_keeps_arg6 (W2 m ρ c)).trans (w2_arg6 m ρ c)

/-! ## After the second region -/

theorem w4_hidden : W4 m ρ c (Proc.devRef .tc main_v19) = Gcn.hidden (spread16 (srcIds (m ((c : Thread nD τ).loc main_arg1))) (dstIds (m ((c : Thread nD τ).loc main_arg1))) (m ((c : Thread nD τ).loc main_arg2)) (feat (m ((c : Thread nD τ).loc main_arg0)) (m ((c : Thread nD τ).loc main_arg3)))) (m ((c : Thread nD τ).loc main_arg4)) (m ((c : Thread nD τ).loc main_arg5)) := by
  refine ((W4_arr m ρ c 3).trans (Linear2.final (V3 m ρ) c)).trans ?_
  exact congr (congr (congrArg Gcn.hidden (w3_agg m ρ c)) ((congrArg rowOf (w3_bias m ρ c)).trans (rowOf_asRow16 _))) (w3_arg5 m ρ c)
theorem w4_src : W4 m ρ c (Proc.devRef .tc main_v1) = srcIds (m ((c : Thread nD τ).loc main_arg1)) := (W4_of_ne m ρ c main_v1 (by decide)).trans (w3_src m ρ c)
theorem w4_dst : W4 m ρ c (Proc.devRef .tc main_v3) = dstIds (m ((c : Thread nD τ).loc main_arg1)) := (W4_of_ne m ρ c main_v3 (by decide)).trans (w3_dst m ρ c)
theorem w4_arg2 : W4 m ρ c (Proc.devRef .tc main_arg2) = (m ((c : Thread nD τ).loc main_arg2)) := (W4_of_ne m ρ c main_arg2 (by decide)).trans (w3_arg2 m ρ c)
theorem w4_arg6 : W4 m ρ c (Proc.devRef .tc main_arg6) = (m ((c : Thread nD τ).loc main_arg6)) := (W4_of_ne m ρ c main_arg6 (by decide)).trans (w3_arg6 m ρ c)

/-! ## After the third stretch -/

theorem w5_agg : W5 m ρ c (Proc.devRef .tc main_v32) = spread7 (srcIds (m ((c : Thread nD τ).loc main_arg1))) (dstIds (m ((c : Thread nD τ).loc main_arg1))) (m ((c : Thread nD τ).loc main_arg2)) (Gcn.hidden (spread16 (srcIds (m ((c : Thread nD τ).loc main_arg1))) (dstIds (m ((c : Thread nD τ).loc main_arg1))) (m ((c : Thread nD τ).loc main_arg2)) (feat (m ((c : Thread nD τ).loc main_arg0)) (m ((c : Thread nD τ).loc main_arg3)))) (m ((c : Thread nD τ).loc main_arg4)) (m ((c : Thread nD τ).loc main_arg5))) := by
  refine (Stretches.third_agg (W4 m ρ c)).trans ?_
  rw [w4_src m ρ c, w4_dst m ρ c, w4_arg2 m ρ c, w4_hidden m ρ c]
theorem w5_bias : W5 m ρ c (Proc.devRef .tc main_v33) = asRow7 (m ((c : Thread nD τ).loc main_arg6)) :=
  (Stretches.third_bias (W4 m ρ c)).trans (congrArg asRow7 (w4_arg6 m ρ c))

/-! ## After the third region: the result -/

/-- THE KERNEL'S RESULT: the biased row-wise log-softmax of the twice aggregated, twice mapped features. -/
theorem result : W6 m ρ c (Proc.devRef .tc main_v34) = logSoftmax (scores (spread7 (srcIds (m ((c : Thread nD τ).loc main_arg1))) (dstIds (m ((c : Thread nD τ).loc main_arg1))) (m ((c : Thread nD τ).loc main_arg2)) (Gcn.hidden (spread16 (srcIds (m ((c : Thread nD τ).loc main_arg1))) (dstIds (m ((c : Thread nD τ).loc main_arg1))) (m ((c : Thread nD τ).loc main_arg2)) (feat (m ((c : Thread nD τ).loc main_arg0)) (m ((c : Thread nD τ).loc main_arg3)))) (m ((c : Thread nD τ).loc main_arg4)) (m ((c : Thread nD τ).loc main_arg5)))) (m ((c : Thread nD τ).loc main_arg6))) := by
  refine ((W6_arr m ρ c 2).trans (Softmax.final (V5 m ρ) c)).trans ?_
  exact congrArg logSoftmax (congr (congrArg scores (w5_agg m ρ c)) ((congrArg rowOf (w5_bias m ρ c)).trans (rowOf_asRow7 _)))

end Cert.KernelIdeal.Boundaries

end
-- ==== Proof.RefStages.lean ====
/-
  The reference's stages are the same functions of the same arrays.

  Read one operation at a time, the reference computes: the first linear map (`Gcn.feat`); the sparse aggregation of it
  (`Aggregate.spread16`, the identical operations); bias, rectifier and the second linear map (`Gcn.hidden`: the reference
  lays the bias along the rows by two broadcasts and takes the maximum with a zero matrix); the second aggregation
  (`Aggregate.spread7`); and the biased row-wise log-softmax (`Gcn.logSoftmax` of `Gcn.scores`). Its log-softmax takes the
  maximum of −∞ with each row's maximum, itself folded from −∞: that second maximum changes nothing (`Gcn.max_fold_self`).
  Its row sum starts from the word of zero, which adds nothing.
-/
import proofs.«174718_j90288802497036_2_alg».proof.Proof.RefRead
import proofs.«174718_j90288802497036_2_alg».proof.Proof.Stages
import proofs.«174718_j90288802497036_2_alg».proof.Proof.Aggregate
import Idealize.ShloMosaic.PureOps.Ideal.Laws
import Idealize.ShloMosaic.Lib.ValueIdx

set_option maxRecDepth 16384

noncomputable section

namespace Cert.ReferenceIdeal.Stages

open Cert.ReferenceIdeal Cert.ReferenceIdeal.Gen Cert.ReferenceIdeal.Read Cert.Gcn
open Idealize.ShloMosaic Idealize.ShloMosaic.ValueIdx
open Cert.KernelIdeal.Aggregate (srcIds dstIds spread16 spread7)

/-! ## The two aggregations: the identical operations, whatever the float values -/

section AnyValues
variable {F : FTy → Type} [FloatOps F]

theorem agg1_eq (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) :
    val_main_v17 (F := F) x0 x1 x2 x3 = spread16 (srcIds x1) (dstIds x1) x2 (val_main_v0 (F := F) x0 x3) := rfl

theorem agg2_eq (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) :
    val_main_v39 (F := F) x0 x1 x2 x3 x4 x5 = spread7 (srcIds x1) (dstIds x1) x2 (val_main_v22 (F := F) x0 x1 x2 x3 x4 x5) := rfl

end AnyValues

/-! ## The dense stages at the extended reals -/

/-- The first product is `Gcn.feat`. -/
theorem feat_eq (x0 : (⟨S100000x512, .f32⟩ : BufTy).Contents (Elt Ideal)) (x3 : (⟨S512x16, .f32⟩ : BufTy).Contents (Elt Ideal)) :
    val_main_v0 (F := Ideal) x0 x3 = feat x0 x3 := by
  funext i
  rw [val_main_v0_apply]
  unfold feat
  refine Finset.sum_congr rfl fun k _ => ?_
  refine congrArg₂ (· * ·) (congrArg x0 (funext fun a => ?_)) (congrArg x3 (funext fun a => ?_))
  · match a with
    | ⟨0, _⟩ => rfl
    | ⟨1, _⟩ => rfl
  · match a with
    | ⟨0, _⟩ => rfl
    | ⟨1, _⟩ => rfl

/-- Bias, rectifier and the second product are `Gcn.hidden` of the aggregated first layer. -/
theorem hidden_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) :
    val_main_v22 (F := Ideal) x0 x1 x2 x3 x4 x5 = Gcn.hidden (val_main_v17 (F := Ideal) x0 x1 x2 x3) x4 x5 := by
  funext i
  rw [val_main_v22_apply]
  unfold Gcn.hidden
  refine Finset.sum_congr rfl fun k _ => ?_
  rw [val_main_v21_apply, val_main_v20_apply, val_main_v19_apply, val_main_v18_apply, val_main_call0_v0_apply, val_main_call0_cst_apply]
  show max (val_main_v17 (F := Ideal) x0 x1 x2 x3 (lidx_main_v22 i k) + x4 (idx_main_v18 (idx_main_v19 (lidx_main_v22 i k)))) zeroW * x5 (ridx_main_v22 i k) = _
  refine congrArg₂ (· * ·) (congrArg (max · zeroW) (congrArg₂ (· + ·) (congrArg _ (funext fun a => ?_)) (congrArg x4 (funext fun a => ?_)))) (congrArg x5 (funext fun a => ?_))
  · match a with
    | ⟨0, _⟩ => rfl
    | ⟨1, _⟩ => rfl
  · match a with
    | ⟨0, _⟩ => rfl
  · match a with
    | ⟨0, _⟩ => rfl
    | ⟨1, _⟩ => rfl

/-- The biased scores: the second bias laid along every row of the aggregated second layer. -/
theorem scores_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal)) :
    val_main_v42 (F := Ideal) x0 x1 x2 x3 x4 x5 x6 = scores (val_main_v39 (F := Ideal) x0 x1 x2 x3 x4 x5) x6 := by
  funext j
  rw [val_main_v42_apply, val_main_v41_apply, val_main_v40_apply]
  unfold scores
  show val_main_v39 (F := Ideal) x0 x1 x2 x3 x4 x5 j + x6 (idx_main_v40 (idx_main_v41 j)) = _
  refine congrArg₂ (· + ·) rfl (congrArg x6 (funext fun a => ?_))
  match a with
  | ⟨0, _⟩ => rfl

/-- Row r with column k put back is (r, k). -/
theorem lift_row (h : S100000x7.Reduces [1] S100000) (r : S100000.Idx) (k : Fin (S100000x7.size 1)) :
    h.lift r k = at2 (r 0).val (r 0).isLt k.val k.isLt := by
  funext c; apply Fin.ext
  fin_cases c <;> rfl

/-- A row's maximum: the reduce with a maximum body from −∞, then a maximum with −∞, is the fold of `max` over the row. -/
theorem rowmax_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal)) (r : S100000.Idx) :
    val_main_call1_v2 (F := Ideal) x0 x1 x2 x3 x4 x5 x6 r = rowMax (val_main_v42 (F := Ideal) x0 x1 x2 x3 x4 x5 x6) (r 0).val (r 0).isLt := by
  have h1 : val_main_call1_v2 (F := Ideal) x0 x1 x2 x3 x4 x5 x6 r
      = max negInf (Host.reduce (FloatOps.maximumf (F := Ideal) (φ := .f32)) (val_main_v42 (F := Ideal) x0 x1 x2 x3 x4 x5 x6) (val_main_call1_cst (F := Ideal)) reducesTo_S100000x7_S100000_d1 h_S_ r) := by
    rw [val_main_call1_v2_apply, val_main_call1_v1_apply, val_main_call1_cst_0_apply]
    rfl
  have hred : S100000x7.Reduces [1] S100000 := by decide
  have h2 : Host.reduce (FloatOps.maximumf (F := Ideal) (φ := .f32)) (val_main_v42 (F := Ideal) x0 x1 x2 x3 x4 x5 x6) (val_main_call1_cst (F := Ideal)) reducesTo_S100000x7_S100000_d1 h_S_ r
      = (Finset.univ : Finset (Fin 7)).fold max negInf fun k => (val_main_v42 (F := Ideal) x0 x1 x2 x3 x4 x5 x6) (hred.lift r k) :=
    Host.reduce_eq_fold_single (α := EReal) (s := S100000x7) (t := S100000) (a := (1 : Fin S100000x7.rank)) (u := S_)
      (FloatOps.maximumf (F := Ideal) (φ := .f32)) (val_main_v42 (F := Ideal) x0 x1 x2 x3 x4 x5 x6) (val_main_call1_cst (F := Ideal)) reducesTo_S100000x7_S100000_d1 hred h_S_ r
  have h3 : ((Finset.univ : Finset (Fin 7)).fold max negInf fun k => (val_main_v42 (F := Ideal) x0 x1 x2 x3 x4 x5 x6) (hred.lift r k))
      = (Finset.univ : Finset (Fin 7)).fold max negInf fun k => (val_main_v42 (F := Ideal) x0 x1 x2 x3 x4 x5 x6) (at2 (r 0).val (r 0).isLt k.val k.isLt) :=
    congrArg (fun f => Finset.fold max negInf f (Finset.univ : Finset (Fin 7))) (funext fun k => congrArg (val_main_v42 (F := Ideal) x0 x1 x2 x3 x4 x5 x6) (lift_row hred r k))
  exact h1.trans ((congrArg (max negInf) (h2.trans h3)).trans (max_fold_self _ _ _))

/-- The shifted scores: each score less its row's maximum. -/
theorem shifted_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal)) (j : S100000x7.Idx) :
    val_main_call1_v5 (F := Ideal) x0 x1 x2 x3 x4 x5 x6 j
      = val_main_v42 (F := Ideal) x0 x1 x2 x3 x4 x5 x6 j - rowMax (val_main_v42 (F := Ideal) x0 x1 x2 x3 x4 x5 x6) (j 0).val (j 0).isLt := by
  rw [val_main_call1_v5_apply, val_main_call1_v4_apply, val_main_call1_v3_apply]
  exact congrArg (val_main_v42 (F := Ideal) x0 x1 x2 x3 x4 x5 x6 j - ·) (rowmax_eq x0 x1 x2 x3 x4 x5 x6 _)

/-- The whole of the reference's log-softmax is `Gcn.logSoftmax` of its scores. -/
theorem softmax_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal)) :
    val_main_v43 (F := Ideal) x0 x1 x2 x3 x4 x5 x6 = logSoftmax (val_main_v42 (F := Ideal) x0 x1 x2 x3 x4 x5 x6) := by
  funext i
  rw [val_main_v43_apply, shifted_eq, val_main_call1_v10_apply, val_main_call1_v9_apply, val_main_call1_v8_apply, val_main_call1_v7_apply,
    val_main_call1_cst_1_apply]
  unfold logSoftmax
  simp only [Ideal.subf_def, Ideal.hostUnary_log_def, Ideal.ofBits_def, Ideal.ofBits_zero_f32, zero_add]
  refine congrArg₂ (· - ·) rfl (congrArg Ideal.log (Finset.sum_congr rfl fun k _ => ?_))
  rw [val_main_call1_v6_apply, shifted_eq]
  simp only [Ideal.hostUnary_exp_def]
  have e : idx_main_call1_v7 (idx_main_call1_v8 (idx_main_call1_v10 i)) k = at2 (i 0).val (i 0).isLt k.val k.isLt := funext fun a => by
    match a with
    | ⟨0, _⟩ => rfl
    | ⟨1, _⟩ => rfl
  exact congrArg (fun j => Ideal.exp (val_main_v42 (F := Ideal) x0 x1 x2 x3 x4 x5 x6 j - rowMax (val_main_v42 (F := Ideal) x0 x1 x2 x3 x4 x5 x6) (i 0).val (i 0).isLt)) e

/-- THE REFERENCE'S RESULT as the composition of the stages. -/
theorem result_eq (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (x6 : (⟨S7, .f32⟩ : BufTy).Contents (Elt Ideal)) :
    val_main_v43 (F := Ideal) x0 x1 x2 x3 x4 x5 x6
      = logSoftmax (scores (spread7 (srcIds x1) (dstIds x1) x2
          (Gcn.hidden (spread16 (srcIds x1) (dstIds x1) x2 (feat x0 x3)) x4 x5)) x6) := by
  rw [softmax_eq, scores_eq, agg2_eq, hidden_eq, agg1_eq, feat_eq]

end Cert.ReferenceIdeal.Stages

end
-- ==== Proof.lean ====
/-
  A two-layer graph convolution with a log-softmax head, computed by three row-tiled kernels around two sparse
  aggregations, against its plain reference: the two programs end with equal results over the extended reals.

  Both compute, for node features x, an edge list, edge weights, weights W1, W2 and biases b1, b2:
      log_softmax ( Agg ( max ( Agg (x·W1) + b1, 0 ) · W2 ) + b2 ),
  where Agg sums, into each target node, the edge weight times the source node's row. The kernel computes the three dense
  stages 5000 rows at a time; each stage acts on rows independently (a product's entry is a sum over one row of its left
  operand; a row's maximum and sum involve that row only), so the 20 row blocks of each stage are exactly the stage applied
  to the whole array (`Linear1`, `Linear2`, `Softmax`). The aggregations are the identical host operations in both programs
  (`Aggregate`). The reference's stages are the same functions (`RefStages`): a product into a zero accumulator is the plain
  sum; the reference's extra maximum with −∞ changes nothing. No step uses that the inputs are finite: the laws used
  (0 + s = s; a fold of `max` from b is at least b) hold at the infinities too.

  The frames of the two kernel programs are their generated frame certificates; the reference's is its run with the result
  dropped. The idealization rewrote no operation, so there is nothing to preserve.
-/
import proofs.«174718_j90288802497036_2_alg».proof.Defs
import proofs.«174718_j90288802497036_2_alg».proof.Proof.Gen.Kernel
import proofs.«174718_j90288802497036_2_alg».proof.Proof.Gen.Kernel.Frame
import proofs.«174718_j90288802497036_2_alg».proof.Proof.Gen.KernelIdeal
import proofs.«174718_j90288802497036_2_alg».proof.Proof.Gen.KernelIdeal.Frame
import proofs.«174718_j90288802497036_2_alg».proof.Proof.Gen.ReferenceIdeal
import proofs.«174718_j90288802497036_2_alg».proof.Proof.Gen.Pre_finite_inputs
import proofs.«174718_j90288802497036_2_alg».proof.Proof.RefRun
import proofs.«174718_j90288802497036_2_alg».proof.Proof.RefRead
import proofs.«174718_j90288802497036_2_alg».proof.Proof.KernelRun
import proofs.«174718_j90288802497036_2_alg».proof.Proof.Boundaries
import proofs.«174718_j90288802497036_2_alg».proof.Proof.RefStages

set_option maxRecDepth 16384

noncomputable section

namespace Cert.Proof

open Idealize.ShloMosaic Idealize.ShloMosaic.TcCoe Idealize.SL.Sem
open Cert.KernelIdeal.Aggregate (srcIds dstIds spread16 spread7)

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run: the result buffer ends at the composition of the stages, the arguments as launched. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v34) = (Gcn.logSoftmax (Gcn.scores (spread7 (srcIds (m ((c.tc : Thread Cert.KernelIdeal.nD Cert.KernelIdeal.τ).loc Cert.KernelIdeal.main_arg1))) (dstIds (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (Gcn.hidden (spread16 (srcIds (m ((c.tc : Thread Cert.KernelIdeal.nD Cert.KernelIdeal.τ).loc Cert.KernelIdeal.main_arg1))) (dstIds (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (Gcn.feat (m ((c.tc : Thread Cert.KernelIdeal.nD Cert.KernelIdeal.τ).loc Cert.KernelIdeal.main_arg0)) (m ((c.tc : Thread Cert.KernelIdeal.nD Cert.KernelIdeal.τ).loc Cert.KernelIdeal.main_arg3)))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))) (m ((c.tc : Thread Cert.KernelIdeal.nD Cert.KernelIdeal.τ).loc Cert.KernelIdeal.main_arg6))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono (fun _ h c => ⟨(h c).1.trans (Cert.KernelIdeal.Boundaries.result m ρ c), (h c).2⟩)
    (Cert.KernelIdeal.Result.run_result m ρ)

/-- The two idealized programs, from memories that agree on the arguments, end with equal results: both result buffers
    hold the same composition of the stages of the same argument arrays. -/
theorem algebraic : Cert.algebraic_KernelIdeal_ReferenceIdeal := by
  intro m ρ m' ρ' _ hagree
  refine ⟨_, kernel_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v43_eq, Cert.ReferenceIdeal.Stages.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
